-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S8192x4096 : Shape := ⟨2, ![8192, 4096]⟩
abbrev S8192 : Shape := ⟨1, ![8192]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S4096x4096 .f32) (main_arg1 : FVec F S8192x4096 .f32) (main_arg2 : FVec F S8192 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S4096x4096 : Shape := ⟨2, ![4096, 4096]⟩
abbrev S8192x4096 : Shape := ⟨2, ![8192, 4096]⟩
abbrev S8192 : Shape := ⟨1, ![8192]⟩
abbrev S1x8192 : Shape := ⟨2, ![1, 8192]⟩
abbrev S4096x8192 : Shape := ⟨2, ![4096, 8192]⟩
abbrev S1024x1024 : Shape := ⟨2, ![1024, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S8192x4096, .f32⟩
  | .hbm, ⟨2, _⟩ => ⟨S8192, .f32⟩
  | .hbm, ⟨3, _⟩ => ⟨S1x8192, .f32⟩
  | .hbm, ⟨4, _⟩ => ⟨S4096x8192, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v27 : BitVec 1 := Scalar.cmpi .eq arg2 c3_i32
  let v28 : BitVec 32 := Scalar.extui v27
  let c0_i32_11 : BitVec 32 := 0#32
  let v29 : BitVec 1 := Scalar.cmpi .ne v28 c0_i32_11
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  natLt_1_32 : 1 < 32
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x4096.size a
  hwx0_1 : ∀ i : grid0.Coords, EltTy.bits .f32 = 32 ∨ (Rect.block (s := S8192x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x8192.size a
  hwx0_3 : ∀ i : grid0.Coords, EltTy.bits .f32 = 32 ∨ (Rect.block (s := S4096x8192) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S8192x4096 : Shape := ⟨2, ![8192, 4096]⟩
abbrev S8192 : Shape := ⟨1, ![8192]⟩
abbrev S_ : Shape := ⟨0, ![]⟩
abbrev S4096x8192 : Shape := ⟨2, ![4096, 8192]⟩
abbrev S1x8192 : Shape := ⟨2, ![1, 8192]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S8192x4096, .f32⟩
  | .hbm, ⟨2, _⟩ => ⟨S8192, .f32⟩
  | .hbm, ⟨3, _⟩ => ⟨S8192x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S4096x8192, .f32⟩
  | .hbm, ⟨13, _⟩ => ⟨S4096x8192, .f32⟩
  | .hbm, ⟨14, _⟩ => ⟨S1x8192, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .i1⟩
  | .hbm, ⟨20, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  transposes_S8192x4096_S4096x8192_1_0 : S8192x4096.Transposes [1, 0] S4096x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.Spec.lean ====
/-
  The function both programs compute, stated once over the extended reals, and the two pure facts that join them.

  With `bin a = min 1 (max 0 (sign a))` (a weight binarised to 0 or 1) and `thr s = 1` when `s > 1/2`, else `0`,
  the result at row `P`, column `Q` is
      thr ( (∑ k < 4096, x[P,k] · bin w[Q,k]) + b[Q] ).
  One program adds the 4096 products in one sum; the other adds them 1024 at a time, in four consecutive runs, onto
  a zero.  Addition of extended reals is commutative and associative (no cancellation is used), so the two agree
  whatever the inputs are: `sum_runs`.  The closing conversion of the comparison bit to a float is written once by
  widening the bit and reading it signed, once by reading it unsigned; a one-bit word widened to 32 bits is never
  negative, so both read 0 or 1: `bit_signed_eq_unsigned`.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A weight binarised: its sign clamped to [0, 1]. -/
def bin (a : EReal) : EReal :=
  min (Ideal.ofBits .f32 0x3F800000#32) (max (Ideal.ofBits .f32 0x00000000#32) (Ideal.sign a))

/-- The hard threshold at one half, as the float 0 or 1. -/
def thr (s : EReal) : EReal :=
  (((Ideal.cmp .ogt s (Ideal.ofBits .f32 0x3F000000#32)).toNat : ℝ) : EReal)

/-- One product of the contraction: row `P` of `x` against row `Q` of the binarised `w`, at position `k`. -/
def term (x : (⟨2, ![4096, 4096]⟩ : Shape).Idx → EReal) (w : (⟨2, ![8192, 4096]⟩ : Shape).Idx → EReal)
    (P : Fin 4096) (Q : Fin 8192) (k : Fin 4096) : EReal :=
  x (ix2 P k) * bin (w (ix2 Q k))

/-- The result array as one function of the three argument arrays. -/
def G (x : (⟨2, ![4096, 4096]⟩ : Shape).Idx → EReal) (w : (⟨2, ![8192, 4096]⟩ : Shape).Idx → EReal)
    (b : (⟨1, ![8192]⟩ : Shape).Idx → EReal) : (⟨2, ![4096, 8192]⟩ : Shape).Idx → EReal :=
  fun i => thr ((∑ k : Fin 4096, term x w (i 0) (i 1) k) + b (ix1 (i 1)))

/-- The product of two [1024,1024] blocks along their second axes, the second block binarised: entry (p, q). -/
def blockProd (x0 x1 : (⟨2, ![1024, 1024]⟩ : Shape).Idx → EReal) (p q : Fin 1024) : EReal :=
  ∑ κ : Fin 1024, x0 (ix2 p κ) * bin (x1 (ix2 q κ))

/-- A function on the 4096 positions extended by zero to every natural number. -/
def ext (f : Fin 4096 → EReal) (n : ℕ) : EReal := if h : n < 4096 then f ⟨n, h⟩ else 0

theorem ext_of_lt (f : Fin 4096 → EReal) (n : ℕ) (h : n < 4096) : ext f n = f ⟨n, h⟩ := dif_pos h

/-- Four consecutive runs of 1024 positions make up the 4096. -/
theorem sum_runs (f : Fin 4096 → EReal) :
    ∑ s ∈ Finset.range 4, ∑ κ : Fin 1024, ext f (1024 * s + κ.val) = ∑ k : Fin 4096, f k := by
  have e := (finProdFinEquiv (m := 4) (n := 1024)).sum_comp f
  rw [← e, Fintype.sum_prod_type, ← Fin.sum_univ_eq_sum_range (fun s => ∑ κ : Fin 1024, ext f (1024 * s + κ.val)) 4]
  refine Finset.sum_congr rfl fun a _ => Finset.sum_congr rfl fun κ _ => ?_
  have ha : a.val < 4 := a.isLt
  have hk : κ.val < 1024 := κ.isLt
  rw [ext_of_lt f _ (by omega)]
  refine congrArg f (Fin.ext ?_)
  show 1024 * a.val + κ.val = κ.val + 1024 * a.val
  omega

/-- A one-bit word widened to 32 bits and read as a signed integer is the bit read as a natural number. -/
theorem bit_signed_eq_unsigned (b : BitVec 1) :
    ((((b.setWidth 32).toInt : ℤ) : ℝ) : EReal) = (((b.toNat : ℕ) : ℝ) : EReal) := by
  have h : ∀ b : BitVec 1, (b.setWidth 32).toInt = (b.toNat : ℤ) := by decide
  rw [h b, Int.cast_natCast]

end Cert.Spec

end
-- ==== Proof.Pieces.lean ====
/-
  What one grid point's body leaves behind, as values.

  The body keeps a running [1024,1024] accumulator between the points of the contraction axis.  At a point it
  (first point of a run only) overwrites the accumulator with the zero block, then adds to the accumulator the
  product of the x block with the transposed binarised weight block, and (last point of a run only) writes the
  thresholded accumulator-plus-bias into the output block.  Each of these stores covers its whole buffer, so what a
  buffer holds afterwards is the last store's value, and a load that follows a store reads that store's value back.
  Hence, with `acc ↦ step x w acc` the accumulate step and `fin acc b` the closing threshold:
    first point of a run : accumulator ends at `step x w zero`
    middle points        : accumulator ends at `step x w acc`
    last point           : accumulator ends at `step x w acc`, output block at `fin (step x w acc) b`.
-/
import proofs.«179026_j37245956391175_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-buffer rectangle. -/
theorem hz : (![0, 0] : Fin 2 → Nat) = fun _ => 0 := funext fun a => by fin_cases a <;> rfl

/-- A middle point of a run: the accumulator, holding `xs`, ends at the accumulate step of `xs`. -/
theorem acc_mid (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i) (x0 x1 : Vec F S1024x1024 .f32) (x2 : Vec F S1x1024 .f32) (xs : Vec F S1024x1024 .f32) :
    sout0_B_0 c i a3 h3 a4 h4 a5 h5 a6 h6 a7 h7 hc0 hc1 x0 x1 x2 xs = k0_pay2 x0 x1 xs := by
  unfold sout0_B_0
  rw [View.read_writes_eq_canon _ _ _ (scover0_B_0 c i a3 h3 a4 h4 a5 h5 a6 h6 a7 h7 hc0 hc1 x0 x1 x2 xs)]
  unfold kernelRun0_B
  dsimp only
  rw [View.canon_unit_zero hz]
  simp only [View.readAt_eq_ld, h3.read_unread, h4.read_unread, h7.read_unread, View.ld_unit_zero (S := S1024x1024) hz]

/-- The first point of a run: the accumulator is zeroed, read back, and ends at the accumulate step of the zero block. -/
theorem acc_first (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i) (x0 x1 : Vec F S1024x1024 .f32) (x2 : Vec F S1x1024 .f32) :
    sout0_A_0 c i a3 h3 a4 h4 a5 h5 a6 h6 a7 h7 hc0 hc1 x0 x1 x2 = k0_pay2 x0 x1 k0_pay1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- The last point of a run: the accumulator, holding `xs`, again ends at the accumulate step of `xs`; -/
theorem acc_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .f32) (x2 : Vec F S1x1024 .f32) (xs : Vec F S1024x1024 .f32) :
    sout0_C_0 c i a3 h3 a4 h4 a5 h5 a6 h6 a7 h7 hc0 hc1 x0 x1 x2 xs = k0_pay2 x0 x1 xs := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero hz]
  simp only [View.readAt_eq_ld, h3.read_unread, h4.read_unread, h7.read_unread, View.ld_unit_zero (S := S1024x1024) hz]

/-- and the output block ends at the closing threshold of that accumulator and the bias block. -/
theorem out_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .f32) (x2 : Vec F S1x1024 .f32) (xs : Vec F S1024x1024 .f32) :
    out0_C_3 c i a3 h3 a4 h4 a5 h5 a6 h6 a7 h7 hc0 hc1 x0 x1 x2 xs = k0_pay3 (k0_pay2 x0 x1 xs) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread,
    View.ld_unit_zero (S := S1024x1024) hz, View.ld_unit_zero (S := S1x1024) hz]

end Cert.KernelIdeal.Pieces

end
-- ==== Proof.PayloadAt.lean ====
/-
  The body's three stored values read at one entry, on the extended reals.

  The zero block is 0 everywhere.  The accumulate step adds to the accumulator's entry (p, q) the sum over the 1024
  positions κ of the block of x at (p, κ) times the binarised block of w at (q, κ): both blocks are contracted along
  their second axis, the rounding of the operands to a shorter float format before the product changes nothing on
  the extended reals, and the product starts from a zero accumulator, which adds nothing.  The weight is binarised by
  the sign written out as two selects (−1 below zero, +1 above, the weight itself at zero), clamped to [0, 1].  The
  closing value at (p, q) is the threshold at one half of the accumulator's entry plus entry q of the bias row, the
  comparison bit widened and converted to a float.
-/
import proofs.«179026_j37245956391175_1_alg».proof.Proof.Gen.KernelIdeal.Skeleton
import proofs.«179026_j37245956391175_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PayloadAt

open Cert.KernelIdeal Cert.KernelIdeal.Gen Idealize.ShloMosaic Idealize.ShloMosaic.ValueIdx Cert.Spec

/-- The zero block. -/
theorem zero_at (i : S1024x1024.Idx) : k0_pay1 (F := Ideal) i = 0 := by
  unfold k0_pay1
  simp only [shapeCast_self]
  exact Ideal.ofBits_zero_f32

/-- Where the block product reads its operands: the left one at (output row, contraction position), -/
theorem lhs_row (j : S1024x1024.Idx) (k : (dot_S1024x1024_S1024x1024_S1024x1024_1_1_0_0_n_n).contr.Idx) :
    ((dot_S1024x1024_S1024x1024_S1024x1024_1_1_0_0_n_n).lhsIdx j k 0).val = (j 0).val := by
  unfold DotDims.lhsIdx
  rw [dif_neg (show ¬(0 : Fin S1024x1024.rank) ∈ (dot_S1024x1024_S1024x1024_S1024x1024_1_1_0_0_n_n).lhsBatch by decide),
    dif_pos (show (0 : Fin S1024x1024.rank) ∈ (dot_S1024x1024_S1024x1024_S1024x1024_1_1_0_0_n_n).lhsNonContracting by decide)]
  rfl
theorem lhs_pos (j : S1024x1024.Idx) (k : (dot_S1024x1024_S1024x1024_S1024x1024_1_1_0_0_n_n).contr.Idx) :
    ((dot_S1024x1024_S1024x1024_S1024x1024_1_1_0_0_n_n).lhsIdx j k 1).val = (k ⟨0, by decide⟩).val :=
  (dot_S1024x1024_S1024x1024_S1024x1024_1_1_0_0_n_n).lhsIdx_val_of_single rfl j k
/-- the right one at (output column, contraction position): it too is contracted along its second axis. -/
theorem rhs_row (j : S1024x1024.Idx) (k : (dot_S1024x1024_S1024x1024_S1024x1024_1_1_0_0_n_n).contr.Idx) :
    ((dot_S1024x1024_S1024x1024_S1024x1024_1_1_0_0_n_n).rhsIdx j k 0).val = (j 1).val := by
  unfold DotDims.rhsIdx
  rw [dif_neg (show ¬(0 : Fin S1024x1024.rank) ∈ (dot_S1024x1024_S1024x1024_S1024x1024_1_1_0_0_n_n).rhsBatch by decide),
    dif_pos (show (0 : Fin S1024x1024.rank) ∈ (dot_S1024x1024_S1024x1024_S1024x1024_1_1_0_0_n_n).rhsNonContracting by decide)]
  rfl
theorem rhs_pos (j : S1024x1024.Idx) (k : (dot_S1024x1024_S1024x1024_S1024x1024_1_1_0_0_n_n).contr.Idx) :
    ((dot_S1024x1024_S1024x1024_S1024x1024_1_1_0_0_n_n).rhsIdx j k 1).val = (k ⟨0, by decide⟩).val :=
  (dot_S1024x1024_S1024x1024_S1024x1024_1_1_0_0_n_n).rhsIdx_val_of_single rfl j k

/-- The block product onto a zero accumulator, at entry (p, q): the sum over the contraction position. -/
theorem product_at (l r : FVec Ideal S1024x1024 .bf16) (p q : Fin 1024) :
    matmul dot_S1024x1024_S1024x1024_S1024x1024_1_1_0_0_n_n none l r (constant S1024x1024 .f32 0x00000000#32) (ix2 p q)
      = ∑ κ : Fin 1024, l (ix2 p κ) * r (ix2 q κ) := by
  refine (Ideal.matmul_constant_zero_apply dot_S1024x1024_S1024x1024_S1024x1024_1_1_0_0_n_n none l r (ix2 p q)).trans ?_
  rw [← Equiv.sum_comp (contrEquiv1 dot_S1024x1024_S1024x1024_S1024x1024_1_1_0_0_n_n 1024 rfl rfl).symm]
  refine Finset.sum_congr rfl fun κ _ => ?_
  have hk := contrEquiv1_symm_val dot_S1024x1024_S1024x1024_S1024x1024_1_1_0_0_n_n 1024 rfl rfl κ
  have el : (dot_S1024x1024_S1024x1024_S1024x1024_1_1_0_0_n_n).lhsIdx (ix2 p q)
      ((contrEquiv1 dot_S1024x1024_S1024x1024_S1024x1024_1_1_0_0_n_n 1024 rfl rfl).symm κ) = ix2 p κ :=
    funext fun a => Fin.ext (by
      match a with
      | ⟨0, _⟩ => exact lhs_row _ _
      | ⟨1, _⟩ => exact (lhs_pos _ _).trans hk)
  have er : (dot_S1024x1024_S1024x1024_S1024x1024_1_1_0_0_n_n).rhsIdx (ix2 p q)
      ((contrEquiv1 dot_S1024x1024_S1024x1024_S1024x1024_1_1_0_0_n_n 1024 rfl rfl).symm κ) = ix2 q κ :=
    funext fun a => Fin.ext (by
      match a with
      | ⟨0, _⟩ => exact rhs_row _ _
      | ⟨1, _⟩ => exact (rhs_pos _ _).trans hk)
  rw [el, er]

/-- The weight's binarisation as the body writes it — two selects for the sign, then the clamp — is `bin` entry by entry. -/
theorem bin_at (v5 : Vec Ideal S1024x1024 .f32) (i : S1024x1024.Idx) :
    (minimumf (broadcast S1024x1024 (Scalar.ofBits (F := Ideal) .f32 0x3F800000#32))
      (maximumf (broadcast S1024x1024 (Scalar.ofBits (F := Ideal) .f32 0x00000000#32))
        (select (cmpf .ogt (absf v5) (broadcast S1024x1024 (Scalar.ofBits (F := Ideal) .f32 0x00000000#32)))
          (select (cmpf .olt v5 (constant (F := Ideal) S1024x1024 .f32 0x00000000#32)) (constant (F := Ideal) S1024x1024 .f32 0xBF800000#32)
            (constant (F := Ideal) S1024x1024 .f32 0x3F800000#32)) v5)) : FVec Ideal S1024x1024 .f32) i = bin (v5 i) := by
  unfold bin
  exact congrArg (fun s => min (Ideal.ofBits .f32 0x3F800000#32) (max (Ideal.ofBits .f32 0x00000000#32) s))
    (Ideal.jnp_sign_eq_sign_f32 (v5 i))

/-- The accumulate step at entry (p, q). -/
theorem step_at (x0 x1 acc : Vec Ideal S1024x1024 .f32) (p q : Fin 1024) :
    k0_pay2 (F := Ideal) x0 x1 acc (ix2 p q) = acc (ix2 p q) + blockProd x0 x1 p q := by
  unfold k0_pay2
  simp only [shapeCast_self]
  refine (congrArg (acc (ix2 p q) + ·) (product_at _ _ p q)).trans ?_
  unfold blockProd
  refine congrArg (acc (ix2 p q) + ·) (Finset.sum_congr rfl fun κ _ => ?_)
  exact congrArg (x0 (ix2 p κ) * ·) (bin_at x1 (ix2 q κ))

/-- The closing value at entry (p, q). -/
theorem close_at (acc : Vec Ideal S1024x1024 .f32) (b : Vec Ideal S1x1024 .f32) (p q : Fin 1024) :
    k0_pay3 (F := Ideal) acc b (ix2 p q) = thr (acc (ix2 p q) + b (ix2 (0 : Fin 1) q)) := by
  unfold k0_pay3
  simp only [shapeCast_self]
  unfold thr
  refine (bit_signed_eq_unsigned _).symm.trans ?_ |>.symm
  refine congrArg (fun s : EReal => ((((((Ideal.cmp .ogt s (Ideal.ofBits .f32 0x3F000000#32)).setWidth 32).toInt : ℤ) : ℝ)) : EReal)) ?_
  exact congrArg (acc (ix2 p q) + ·) (broadcastTo_1b_ab_apply b broadcasts_S1x1024_S1024x1024 p q).symm

end Cert.KernelIdeal.PayloadAt

end
-- ==== Proof.Blocks.lean ====
/-
  The blocks the grid hands the body, read at one entry of the argument arrays.

  The grid has 4 × 8 × 4 = 128 points; point t has row-block index t / 32, column-block index (t / 4) % 8 and
  contraction-block index t % 4 (the contraction axis moves fastest).  At point t the body sees
    the block of x      with rows 1024·(t/32) + p        and columns 1024·(t%4) + κ,
    the block of w      with rows 1024·((t/4)%8) + q     and columns 1024·(t%4) + κ,
    the block of bias   (bias laid out as one row of 8192) with columns 1024·((t/4)%8) + q,
  and writes the output block with rows 1024·(t/32) + p and columns 1024·((t/4)%8) + q.
-/
import proofs.«179026_j37245956391175_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The four windows' block indices at a point, from the point's number: decided over the 128 points. -/
theorem block_indices : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = 0 ∧ win0_2.index t (1 : Fin 2) = t.val / 4 % 8
    ∧ win0_3.index t (0 : Fin 2) = t.val / 32 ∧ win0_3.index t (1 : Fin 2) = t.val / 4 % 8 :=
  (by decide +kernel : ∀ t : Fin grid0.N, _)

/-- The block of x at point `t`, entry (p, κ), is x at (1024·(t/32) + p, 1024·(t%4) + κ). -/
theorem x_block_at (c : Dev nD) (t : Fin cfg0.N) (p κ : Fin 1024) (J : S4096x4096.Idx)
    (h0 : (J 0).val = 1024 * (t.val / 32) + p.val) (h1 : (J 1).val = 1024 * (t.val % 4) + κ.val) :
    (iblk m c 0 t : Vec F S1024x1024 .f32) (ix2 p κ) = m ((c : Thread nD τ).loc main_arg0) J := by
  obtain ⟨e0, e1, -⟩ := block_indices t
  unfold iblk
  rw [View.read_apply]
  show V m c main_arg0 _ = _
  rw [V_main_arg0]
  refine congrArg _ (funext fun a => Fin.ext ?_)
  match a with
  | ⟨0, _⟩ => show win0_0.index t 0 * 1024 + 1 * p.val = (J 0).val; rw [e0, h0]; omega
  | ⟨1, _⟩ => show win0_0.index t 1 * 1024 + 1 * κ.val = (J 1).val; rw [e1, h1]; omega

/-- The block of w at point `t`, entry (q, κ), is w at (1024·((t/4)%8) + q, 1024·(t%4) + κ). -/
theorem w_block_at (c : Dev nD) (t : Fin cfg0.N) (q κ : Fin 1024) (J : S8192x4096.Idx)
    (h0 : (J 0).val = 1024 * (t.val / 4 % 8) + q.val) (h1 : (J 1).val = 1024 * (t.val % 4) + κ.val) :
    (iblk m c 1 t : Vec F S1024x1024 .f32) (ix2 q κ) = m ((c : Thread nD τ).loc main_arg1) J := by
  obtain ⟨-, -, e0, e1, -⟩ := block_indices t
  unfold iblk
  rw [View.read_apply]
  show V m c main_arg1 _ = _
  rw [V_main_arg1]
  refine congrArg _ (funext fun a => Fin.ext ?_)
  match a with
  | ⟨0, _⟩ => show win0_1.index t 0 * 1024 + 1 * q.val = (J 0).val; rw [e0, h0]; omega
  | ⟨1, _⟩ => show win0_1.index t 1 * 1024 + 1 * κ.val = (J 1).val; rw [e1, h1]; omega

/-- The row the third window reads is the bias vector laid out as a 1 × 8192 array. -/
theorem bias_row (c : Dev nD) :
    (V m c main_v0 : S1x8192.Idx → Elt F .f32)
      = shapeCast S1x8192 (m ((c : Thread nD τ).loc main_arg2)) shapeCasts_S8192_S1x8192 := by
  dsimp only [V, hostOps0]
  after_results
  rfl

/-- The block of that row at point `t`, entry (0, q), is bias at 1024·((t/4)%8) + q. -/
theorem b_block_at (c : Dev nD) (t : Fin cfg0.N) (q : Fin 1024) (Q : Fin 8192)
    (hQ : Q.val = 1024 * (t.val / 4 % 8) + q.val) :
    (iblk m c 2 t : Vec F S1x1024 .f32) (ix2 (0 : Fin 1) q) = m ((c : Thread nD τ).loc main_arg2) (ix1 Q) := by
  obtain ⟨-, -, -, -, e0, e1, -⟩ := block_indices t
  unfold iblk
  rw [View.read_apply]
  show V m c main_v0 _ = _
  rw [bias_row]
  refine (congrArg _ (funext fun a => Fin.ext ?_)).trans
    (shapeCast_a_1a_apply (m ((c : Thread nD τ).loc main_arg2)) shapeCasts_S8192_S1x8192 (0 : Fin 1) Q)
  match a with
  | ⟨0, _⟩ => show win0_2.index t 0 * 1 + 1 * 0 = 0; rw [e0]
  | ⟨1, _⟩ => show win0_2.index t 1 * 1024 + 1 * q.val = Q.val; rw [e1, hQ]; omega

end Cert.KernelIdeal.Blocks

end
-- ==== Proof.Fold.lean ====
/-
  The accumulator over a run of four points, and the output array after the whole grid.

  The four points 4g, 4g+1, 4g+2, 4g+3 share their row and column blocks and walk the four contraction blocks.
  The accumulator is reset at 4g and each point adds its block product, so after point 4g+3 its entry (p, q) is
  0 plus the four block products: by `sum_runs` the whole contraction ∑ k < 4096 of row P of x against row Q of the
  binarised w, with P = 1024·(row block) + p and Q = 1024·(column block) + q.  That point also writes the thresholded
  accumulator-plus-bias into the output block, which is written back; the 32 written blocks tile the output array, so
  the array ends at `Spec.G` of the three arguments.
-/
import proofs.«179026_j37245956391175_1_alg».proof.Proof.Gen.KernelIdeal.Value
import proofs.«179026_j37245956391175_1_alg».proof.Proof.Spec
import proofs.«179026_j37245956391175_1_alg».proof.Proof.Pieces
import proofs.«179026_j37245956391175_1_alg».proof.Proof.PayloadAt
import proofs.«179026_j37245956391175_1_alg».proof.Proof.Blocks

noncomputable section

open scoped BigOperators
open Idealize.ShloMosaic Idealize.ShloMosaic.TcCoe Idealize.SL.Sem
open Idealize.ShloMosaic.Pipeline (Dat)

namespace Cert.KernelIdeal.Fold

open Cert.KernelIdeal Cert.KernelIdeal.Gen Idealize.ShloMosaic.ValueIdx Cert.Spec

variable (m : (ℓ : Loc nD τ sig) → Buf (Elt Ideal) ℓ) (ρ : Dev nD → PrngReg)

/-- Point `n`'s addend to the accumulator: the product of its two blocks (nothing past the grid). -/
def addend (c : Dev nD) (n : ℕ) (i : S1024x1024.Idx) : EReal :=
  if h : n < cfg0.N then
    blockProd (iblk m c 0 ⟨n, h⟩ : Vec Ideal S1024x1024 .f32) (iblk m c 1 ⟨n, h⟩ : Vec Ideal S1024x1024 .f32) (i 0) (i 1)
  else 0

theorem addend_at (c : Dev nD) (t : Fin cfg0.N) (p q : Fin 1024) :
    addend m c t.val (ix2 p q)
      = blockProd (iblk m c 0 t : Vec Ideal S1024x1024 .f32) (iblk m c 1 t : Vec Ideal S1024x1024 .f32) p q := by
  unfold addend
  rw [dif_pos t.isLt]

/-- The accumulator after point `t`: zero plus the addends of the points of `t`'s run up to `t`. -/
theorem acc_after (c : Dev nD) (t : Fin cfg0.N) (i : S1024x1024.Idx) :
    (outsAt0 m c t.val t.isLt).2 i
      = 0 + ∑ s ∈ Finset.range (t.val % 4 + 1), addend m c (4 * (t.val / 4) + s) i := by
  have hN : cfg0.N = 128 := N_0
  rw [Value.soutsAt0_0_eq m c t]
  refine Pipeline.accAt_add_apply _ _ (fun _ => 0) (addend m c) (4 * (t.val / 4)) 3 ?_ ?_ (t.val % 4) (by omega) _ i
  · intro h j
    obtain ⟨p, q, rfl⟩ : ∃ (p q : Fin 1024), j = ix2 p q := ⟨j 0, j 1, eq_ix2 j⟩
    have h0 : (4 * (t.val / 4)) % 4 = 0 := by omega
    have h1 : ¬(4 * (t.val / 4)) % 4 = 3 := by omega
    unfold Value.scAt0_0
    rw [dif_pos h0, dif_neg h1, Pieces.acc_first, PayloadAt.step_at, PayloadAt.zero_at]
    exact congrArg (0 + ·) (addend_at m c ⟨4 * (t.val / 4), h⟩ p q).symm
  · intro n h acc j hlo hhi
    obtain ⟨p, q, rfl⟩ : ∃ (p q : Fin 1024), j = ix2 p q := ⟨j 0, j 1, eq_ix2 j⟩
    have h0 : ¬n % 4 = 0 := by omega
    unfold Value.scAt0_0
    rw [dif_neg h0]
    by_cases h1 : n % 4 = 3
    · rw [dif_pos h1, Pieces.acc_last, PayloadAt.step_at]
      exact congrArg (acc (ix2 p q) + ·) (addend_at m c ⟨n, h⟩ p q).symm
    · rw [dif_neg h1, Pieces.acc_mid, PayloadAt.step_at]
      exact congrArg (acc (ix2 p q) + ·) (addend_at m c ⟨n, h⟩ p q).symm

/-- One addend of a run, entry (p, q): the 1024 products of the contraction block the point sees, as positions
    1024·(n % 4) + κ of the whole contraction of row `P` of x against row `Q` of the binarised w. -/
theorem addend_run (c : Dev nD) (t : Fin cfg0.N) (p q : Fin 1024) (P : Fin 4096) (Q : Fin 8192)
    (hP : P.val = 1024 * (t.val / 32) + p.val) (hQ : Q.val = 1024 * (t.val / 4 % 8) + q.val) :
    addend m c t.val (ix2 p q)
      = ∑ κ : Fin 1024, ext (term (m ((c : Thread nD τ).loc main_arg0)) (m ((c : Thread nD τ).loc main_arg1)) P Q)
          (1024 * (t.val % 4) + κ.val) := by
  rw [addend_at]
  unfold blockProd
  refine Finset.sum_congr rfl fun κ _ => ?_
  have hκ : κ.val < 1024 := κ.isLt
  have hlt : 1024 * (t.val % 4) + κ.val < 4096 := by omega
  rw [ext_of_lt _ _ hlt]
  unfold term
  rw [Blocks.x_block_at m c t p κ (ix2 P ⟨1024 * (t.val % 4) + κ.val, hlt⟩) hP rfl,
    Blocks.w_block_at m c t q κ (ix2 Q ⟨1024 * (t.val % 4) + κ.val, hlt⟩) hQ rfl]

/-- THE OUTPUT BLOCK at a run's last point, entry (p, q): the thresholded whole contraction plus bias. -/
theorem out_at (c : Dev nD) (t : Fin cfg0.N) (h3 : t.val % 4 = 3) (p q : Fin 1024) (P : Fin 4096) (Q : Fin 8192)
    (hP : P.val = 1024 * (t.val / 32) + p.val) (hQ : Q.val = 1024 * (t.val / 4 % 8) + q.val) :
    (outsAt0 m c t.val t.isLt).1 (ix2 p q)
      = thr ((∑ k : Fin 4096, term (m ((c : Thread nD τ).loc main_arg0)) (m ((c : Thread nD τ).loc main_arg1)) P Q k)
          + m ((c : Thread nD τ).loc main_arg2) (ix1 Q)) := by
  have hN : cfg0.N = 128 := N_0
  have hlt : t.val < 128 := hN ▸ t.isLt
  have h0 : ¬t.val % 4 = 0 := by omega
  have hout : (outsAt0 m c t.val t.isLt).1
      = k0_pay3 (outsAt0 m c t.val t.isLt).2 (iblk m c 2 t : Vec Ideal S1x1024 .f32) := by
    rw [outsAt0_C m c t h0 h3]
    dsimp only
    rw [Pieces.out_last, Pieces.acc_last]
  rw [hout, PayloadAt.close_at, acc_after m c t (ix2 p q), h3, Blocks.b_block_at m c t q Q hQ, zero_add,
    ← sum_runs (term (m ((c : Thread nD τ).loc main_arg0)) (m ((c : Thread nD τ).loc main_arg1)) P Q)]
  refine congrArg (fun s => thr (s + m ((c : Thread nD τ).loc main_arg2) (ix1 Q))) (Finset.sum_congr rfl fun s hs => ?_)
  have hs4 : s < 4 := Finset.mem_range.mp hs
  have hpt : 4 * (t.val / 4) + s < cfg0.N := by omega
  have e := addend_run m c ⟨4 * (t.val / 4) + s, hpt⟩ p q P Q
    (by show P.val = 1024 * ((4 * (t.val / 4) + s) / 32) + p.val; omega)
    (by show Q.val = 1024 * ((4 * (t.val / 4) + s) / 4 % 8) + q.val; omega)
  rw [show (4 * (t.val / 4) + s) % 4 = s by omega] at e
  exact e

/-- An index of the output array is in point `t`'s block iff each coordinate is in the block's range on its axis. -/
theorem mem_out_block (t : Fin cfg0.N) (i : S4096x8192.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- WHAT A RUN'S LAST POINT WRITES BACK is its block of `G` of the three arguments. -/
theorem flushed_eq (c : Dev nD) (t : Fin cfg0.N) (hf : (cfg0.win 3).flush t = true) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  have h3 : t.val % 4 = 3 := (flush0_3 t).mp hf
  obtain ⟨-, -, -, -, -, -, e0, e1⟩ := Blocks.block_indices t
  rw [Value.flushed3 m c t]
  funext j
  obtain ⟨p, q, rfl⟩ : ∃ (p q : Fin 1024), j = ix2 p q := ⟨j 0, j 1, eq_ix2 j⟩
  rw [View.read_apply]
  show (outsAt0 m c t.val t.isLt).1 (ix2 p q) = _
  unfold G
  exact out_at m c t h3 p q _ _
    (by show win0_3.index t 0 * 1024 + 1 * p.val = _; rw [e0]; omega)
    (by show win0_3.index t 1 * 1024 + 1 * q.val = _; rw [e1]; omega)

/-- The written blocks tile the output array: entry (P, Q) lies in the block written at the last point of the run
    of row block P / 1024 and column block Q / 1024. -/
theorem cover (i : S4096x8192.Idx) :
    ∃ t : Fin cfg0.N, (cfg0.win 3).flush t = true ∧ i ∈ ((cfg0.win 3).blk t).view.set := by
  have hN : cfg0.N = 128 := N_0
  have h0 : (i 0).val < 4096 := idx2_lt0 i
  have h1 : (i 1).val < 8192 := idx2_lt1 i
  refine ⟨⟨32 * ((i 0).val / 1024) + 4 * ((i 1).val / 1024) + 3, by omega⟩, ?_, ?_⟩
  · exact (flush0_3 _).mpr (by show (32 * ((i 0).val / 1024) + 4 * ((i 1).val / 1024) + 3) % 4 = 3; omega)
  · obtain ⟨-, -, -, -, -, -, e0, e1⟩ := Blocks.block_indices ⟨32 * ((i 0).val / 1024) + 4 * ((i 1).val / 1024) + 3, by omega⟩
    rw [mem_out_block]
    intro a
    match a with
    | ⟨0, _⟩ =>
      show win0_3.index _ 0 * 1024 ≤ (i 0).val ∧ (i 0).val < win0_3.index _ 0 * 1024 + 1024
      rw [e0]
      show (32 * ((i 0).val / 1024) + 4 * ((i 1).val / 1024) + 3) / 32 * 1024 ≤ (i 0).val
        ∧ (i 0).val < (32 * ((i 0).val / 1024) + 4 * ((i 1).val / 1024) + 3) / 32 * 1024 + 1024
      omega
    | ⟨1, _⟩ =>
      show win0_3.index _ 1 * 1024 ≤ (i 1).val ∧ (i 1).val < win0_3.index _ 1 * 1024 + 1024
      rw [e1]
      show (32 * ((i 0).val / 1024) + 4 * ((i 1).val / 1024) + 3) / 4 % 8 * 1024 ≤ (i 1).val
        ∧ (i 1).val < (32 * ((i 0).val / 1024) + 4 * ((i 1).val / 1024) + 3) / 4 % 8 * 1024 + 1024
      omega

/-- THE OUTPUT ARRAY after the grid is `G` of the three arguments. -/
theorem final (c : Dev nD) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 _ (flushed_eq m c) cover

/-- The kernel's run: the result array at `G` of the arguments, the arguments unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Fold

end
-- ==== Proof.RefIsG.lean ====
/-
  The reference's result, read one operation at a time, is `Spec.G` of its three arguments.

  The reference binarises every weight (sign, then the clamp to [0, 1] as a maximum with 0 and a minimum with 1),
  transposes the binarised matrix, contracts x with it in one product — entry (P, Q) is the sum over k < 4096 of
  x[P, k] times the binarised w[Q, k] —, adds the bias along the columns, compares with one half and converts the
  comparison bit to a float.
-/
import proofs.«179026_j37245956391175_1_alg».proof.Proof.Gen.ReferenceIdeal.Read
import proofs.«179026_j37245956391175_1_alg».proof.Proof.Spec

noncomputable section

open scoped BigOperators

namespace Cert.ReferenceIdeal.RefValue

open Cert.ReferenceIdeal Cert.ReferenceIdeal.Read Idealize.ShloMosaic Idealize.ShloMosaic.ValueIdx Cert.Spec

/-- The clipped sign of a weight is `bin` of it. -/
theorem bin_ref (x1 : (⟨S8192x4096, .f32⟩ : BufTy).Contents (Elt Ideal)) (j : S8192x4096.Idx) :
    val_main_v1 (F := Ideal) x1 j = bin (x1 j) := by
  rw [val_main_v1_apply, val_main_call0_v4_apply, val_main_call0_v3_apply, val_main_cst_0_apply,
    val_main_call0_v2_apply, val_main_call0_v1_apply, val_main_call0_v0_apply, val_main_cst_apply, val_main_v0_apply]
  rfl

/-- The reference's result is `G` of the arguments. -/
theorem result_eq (x0 : (⟨S4096x4096, .f32⟩ : BufTy).Contents (Elt Ideal)) (x1 : (⟨S8192x4096, .f32⟩ : BufTy).Contents (Elt Ideal))
    (x2 : (⟨S8192, .f32⟩ : BufTy).Contents (Elt Ideal)) :
    val_main_v9 (F := Ideal) x0 x1 x2 = G x0 x1 x2 := by
  funext i
  rw [val_main_v9_apply, val_main_v8_apply, val_main_v6_apply, val_main_v3_apply, val_main_v5_apply, val_main_v4_apply,
    val_main_v7_apply, val_main_cst_1_apply]
  unfold G thr
  refine congrArg (fun s : EReal => (((Ideal.cmp .ogt s (Ideal.ofBits .f32 0x3F000000#32)).toNat : ℝ) : EReal)) ?_
  refine congrArg₂ (· + ·) (Finset.sum_congr rfl fun k _ => ?_) (congrArg x2 (funext fun a => ?_))
  · unfold term
    rw [val_main_v2_apply, bin_ref]
    have el : lidx_main_v3 i k = ix2 (i 0) k := funext fun a => by
      match a with
      | ⟨0, _⟩ => rfl
      | ⟨1, _⟩ => rfl
    have er : idx_main_v2 (ridx_main_v3 i k) = ix2 (i 1) k := funext fun a => by
      match a with
      | ⟨0, _⟩ => rfl
      | ⟨1, _⟩ => rfl
    rw [el, er]
    rfl
  · match a with
    | ⟨0, _⟩ => rfl

end Cert.ReferenceIdeal.RefValue

end
-- ==== Proof.lean ====
/-
  A binary dense layer, tiled kernel against its one-line reference: both compute, at row P and column Q of the
  [4096, 8192] result,
      thr ( (∑ k < 4096, x[P,k] · bin w[Q,k]) + bias[Q] ),
  with bin a = min 1 (max 0 (sign a)) and thr the hard threshold at one half (Proof/Spec.lean).

  The kernel walks a 4 × 8 × 4 grid of [1024, 1024] blocks and keeps an accumulator over the four contraction blocks
  of one output block: zeroed at the first, each point adding its block product, the thresholded accumulator plus
  bias written to the output block at the fourth (Proof/Pieces.lean, Proof/PayloadAt.lean, Proof/Blocks.lean,
  Proof/Fold.lean).  The reference binarises the whole weight matrix, contracts once over all 4096 positions, adds
  the bias and thresholds (Proof/RefIsG.lean).  The two sums differ only in grouping — four runs of 1024 added onto a
  zero against one sum of 4096 —, and addition of extended reals is commutative and associative, so they are equal at
  every input, infinite ones included: the precondition is never opened.  The kernel spells the sign as 1.0 carrying
  the weight's sign bit; at the ideal instance that is a comparison with zero, and the one rewrite the idealisation
  made there is the `preserves` conjunct.
-/
import proofs.«179026_j37245956391175_1_alg».proof.Defs
import proofs.«179026_j37245956391175_1_alg».proof.Proof.Gen.Kernel
import proofs.«179026_j37245956391175_1_alg».proof.Proof.Gen.Kernel.Frame
import proofs.«179026_j37245956391175_1_alg».proof.Proof.Gen.KernelIdeal
import proofs.«179026_j37245956391175_1_alg».proof.Proof.Gen.KernelIdeal.Frame
import proofs.«179026_j37245956391175_1_alg».proof.Proof.Gen.KernelIdeal.Value
import proofs.«179026_j37245956391175_1_alg».proof.Proof.Gen.ReferenceIdeal
import proofs.«179026_j37245956391175_1_alg».proof.Proof.Gen.ReferenceIdeal.Run
import proofs.«179026_j37245956391175_1_alg».proof.Proof.Gen.ReferenceIdeal.Read
import proofs.«179026_j37245956391175_1_alg».proof.Proof.Gen.Pre_finite_inputs
import proofs.«179026_j37245956391175_1_alg».proof.Proof.Fold
import proofs.«179026_j37245956391175_1_alg».proof.Proof.RefIsG
import Idealize.ShloMosaic.Adequacy
import Idealize.ShloMosaic.Init

noncomputable section

namespace Cert.Proof

open Idealize.ShloMosaic Idealize.SL.Sem

/-- The three programs run to the end without a fault and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation's one rewrite: 1.0 with a word's sign bit is −1 or +1 by the comparison with zero. -/
theorem preserves : Cert.preserves_Kernel_KernelIdeal :=
  IdealRules.sign_bit.statement Cert.KernelIdeal.S1024x1024 .f32

/-- From memories that agree on the arguments both idealised programs end with the result array at `Spec.G` of the
    arguments. -/
theorem algebraic : Cert.algebraic_KernelIdeal_ReferenceIdeal := by
  intro m ρ m' ρ' _ hagree
  refine ⟨_, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
